-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Spec.lean ====
/-
  The function both programs compute: the pairwise cosine similarity of the rows of two matrices with 1024 columns,

      sim (p, q) = ⟨x_p, y_q⟩ / max (‖x_p‖ · ‖y_q‖, ε),

  over the extended reals: the inner product and the squared norms are sums over the 1024 columns, the norm is
  the extended-real square root of the squared norm, the quotient is the extended-real one and ε is the f32
  word 0x322BCC77 (the nearest f32 to 1e-8), read exactly. Nothing here mentions a program.
-/
import Idealize.ShloMosaic.PureOps.Ideal
import Idealize.ShloMosaic.Lib.ValueIdx

noncomputable section

namespace Cert.CosineSim

open Idealize.ShloMosaic Idealize.ShloMosaic.ValueIdx

/-- The inner product of row `p` of `x` and row `q` of `y`. -/
def rowDot {a b : ℕ} (x : (⟨2, ![a, 1024]⟩ : Shape).Idx → EReal) (y : (⟨2, ![b, 1024]⟩ : Shape).Idx → EReal)
    (p : Fin a) (q : Fin b) : EReal :=
  ∑ k : Fin 1024, x (ix2 p k) * y (ix2 q k)

/-- The Euclidean norm of row `p` of `x`: the square root of the sum of its squared entries. -/
def rowNorm {a : ℕ} (x : (⟨2, ![a, 1024]⟩ : Shape).Idx → EReal) (p : Fin a) : EReal :=
  Ideal.sqrt (∑ k : Fin 1024, x (ix2 p k) * x (ix2 p k))

/-- The clamp ε of the denominator. -/
def eps : EReal := Ideal.ofBits .f32 0x322BCC77#32

/-- The cosine similarity of row `p` of `x` and row `q` of `y`, the denominator clamped below by ε. -/
def cosEntry {a b : ℕ} (x : (⟨2, ![a, 1024]⟩ : Shape).Idx → EReal) (y : (⟨2, ![b, 1024]⟩ : Shape).Idx → EReal)
    (p : Fin a) (q : Fin b) : EReal :=
  Ideal.div (rowDot x y p q) (max (rowNorm x p * rowNorm y q) eps)

/-- An entry depends only on the two rows it names: rows that agree entry by entry give the same similarity,
    whatever arrays they are rows of. -/
theorem cosEntry_congr {a b a' b' : ℕ} (x : (⟨2, ![a, 1024]⟩ : Shape).Idx → EReal) (y : (⟨2, ![b, 1024]⟩ : Shape).Idx → EReal)
    (x' : (⟨2, ![a', 1024]⟩ : Shape).Idx → EReal) (y' : (⟨2, ![b', 1024]⟩ : Shape).Idx → EReal)
    (p : Fin a) (q : Fin b) (p' : Fin a') (q' : Fin b')
    (hx : ∀ k : Fin 1024, x (ix2 p k) = x' (ix2 p' k)) (hy : ∀ k : Fin 1024, y (ix2 q k) = y' (ix2 q' k)) :
    cosEntry x y p q = cosEntry x' y' p' q' := by
  unfold cosEntry rowDot rowNorm
  simp only [hx, hy]

/-- The whole [4096, 4096] similarity matrix of two [4096, 1024] arrays. -/
def cosSim (x y : (⟨2, ![4096, 1024]⟩ : Shape).Idx → EReal) : (⟨2, ![4096, 4096]⟩ : Shape).Idx → EReal :=
  fun i => cosEntry x y (⟨(i 0).val, (i 0).isLt⟩ : Fin 4096) (⟨(i 1).val, (i 1).isLt⟩ : Fin 4096)

theorem cosSim_ix2 (x y : (⟨2, ![4096, 1024]⟩ : Shape).Idx → EReal) (p q : Fin 4096) :
    cosSim x y (ix2 p q) = cosEntry x y p q := rfl

end Cert.CosineSim

end
-- ==== Proof.Payload.lean ====
/-
  One entry of one output block of the kernel, at the extended reals.

  The body loads a [1024, 1024] block `x0` of the first argument and a [512, 1024] block `x1` of the second and
  stores the [1024, 512] block

      matmul (x0, x1) / max (sqrt (rowsum (x0 · x0)) ⊗ sqrt (rowsum (x1 · x1))ᵀ, ε),

  the matrix product contracting the two column axes, the row sums kept as a column [1024, 1] and, transposed,
  a row [1, 512], both broadcast over the block. Read at the entry (p, q) every layout operation names one entry
  of its operand, the row sums and the matrix product are sums over the 1024 columns, and rounding the factors
  to bf16 is the identity: the entry is the cosine similarity of row `p` of `x0` and row `q` of `x1`.
-/
import proofs.«154388_j43353399886117_2_alg».proof.Proof.Gen.KernelIdeal.Skeleton
import proofs.«154388_j43353399886117_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.CosineSim

open Cert.KernelIdeal Cert.KernelIdeal.Gen Idealize.ShloMosaic Idealize.ShloMosaic.ValueIdx

/-! ## The layout operations of a kept-dimension row sum, read at an entry -/

/-- A sum over the columns of an [n, 1024] array, read at row `p`, is the sum of that row's entries. -/
theorem rowSum_apply {n : ℕ} (v : FVec Ideal ⟨2, ![n, 1024]⟩ .f32) (h : (⟨2, ![n, 1024]⟩ : Shape).Reduces [1] ⟨1, ![n]⟩)
    (hφ : FKind.Formats .f32) (hacc : (0x00000000#32 : BitVec 32) = FKind.add.neutral .f32 hφ) (p : Fin n) :
    multiReduction (F := Ideal) .add [1] ⟨1, ![n]⟩ v 0x00000000#32 h hφ hacc (ix1 p) = ∑ k : Fin 1024, v (ix2 p k) :=
  (Ideal.multiReduction_add_single v _ h hφ hacc (ix1 p)).trans
    (Finset.sum_congr rfl fun k _ => congrArg v (funext fun a => Fin.ext (by
      match a with
      | ⟨0, _⟩ => rfl
      | ⟨1, _⟩ => rfl)))

/-- A vector [n] viewed as a column [n, 1] reads, at (p, 0), the vector at `p`. -/
theorem column_apply {α : Type} {n : ℕ} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column [a, 1] broadcast over [a, b] reads, at (p, q), the column at row `p`. -/
theorem columnBroadcast_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The matrix product contracting both column axes, read at an entry -/

theorem lhs_row (i : S1024x512.Idx) (k : dot_S1024x1024_S512x1024_S1024x512_1_1_0_0_n_n.contr.Idx) :
    (dot_S1024x1024_S512x1024_S1024x512_1_1_0_0_n_n.lhsIdx i k 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

theorem rhs_row (i : S1024x512.Idx) (k : dot_S1024x1024_S512x1024_S1024x512_1_1_0_0_n_n.contr.Idx) :
    (dot_S1024x1024_S512x1024_S1024x512_1_1_0_0_n_n.rhsIdx i k 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The product of a [1024, 1024] and a [512, 1024] matrix over their column axes, into the zero block, at (p, q):
    the inner product of row `p` of the first and row `q` of the second. -/
theorem matmul_entry {φ₁ φ₂ : FTy} (x0 : FVec Ideal S1024x1024 φ₁) (x1 : FVec Ideal S512x1024 φ₂) (p : Fin 1024) (q : Fin 512) :
    matmul (F := Ideal) dot_S1024x1024_S512x1024_S1024x512_1_1_0_0_n_n none x0 x1 (constant (F := Ideal) S1024x512 .f32 0x00000000#32) (ix2 p q)
      = ∑ k : Fin 1024, x0 (ix2 p k) * x1 (ix2 q k) := by
  refine (Ideal.matmul_constant_zero_apply dot_S1024x1024_S512x1024_S1024x512_1_1_0_0_n_n none x0 x1 (ix2 p q)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q)
      ((contrEquiv1 dot_S1024x1024_S512x1024_S1024x512_1_1_0_0_n_n 1024 rfl rfl).symm k) = ix2 p k :=
    funext fun a => Fin.ext (by
      match a with
      | ⟨0, _⟩ => exact lhs_row _ _
      | ⟨1, _⟩ => exact (dot_S1024x1024_S512x1024_S1024x512_1_1_0_0_n_n.lhsIdx_val_of_single rfl _ _).trans hk)
  have er : dot_S1024x1024_S512x1024_S1024x512_1_1_0_0_n_n.rhsIdx (ix2 p q)
      ((contrEquiv1 dot_S1024x1024_S512x1024_S1024x512_1_1_0_0_n_n 1024 rfl rfl).symm k) = ix2 q k :=
    funext fun a => Fin.ext (by
      match a with
      | ⟨0, _⟩ => exact rhs_row _ _
      | ⟨1, _⟩ => exact (dot_S1024x1024_S512x1024_S1024x512_1_1_0_0_n_n.rhsIdx_val_of_single rfl _ _).trans hk)
  rw [el, er]

/-! ## The stored block at an entry -/

/-- Entry (p, q) of the block the body stores is the cosine similarity of row `p` of the first loaded block and
    row `q` of the second. -/
theorem payload_entry (x0 : FVec Ideal S1024x1024 .f32) (x1 : FVec Ideal S512x1024 .f32) (p : Fin 1024) (q : Fin 512) :
    k0_pay1 (F := Ideal) x0 x1 (ix2 p q) = cosEntry x0 x1 p q := by
  unfold k0_pay1 cosEntry rowDot rowNorm eps
  refine congrArg₂ Ideal.div ?_ (congrArg₂ max (congrArg₂ (· * ·) ?_ ?_) rfl)
  · exact matmul_entry _ _ p q
  · refine (columnBroadcast_apply _ broadcasts_S1024x1_S1024x512 p q).trans ?_
    refine congrArg Ideal.sqrt ?_
    refine (column_apply _ shapeCasts_S1024_S1024x1 p 0).trans ?_
    exact rowSum_apply _ reduces_S1024x1024_S1024 (.inl rfl) rfl p
  · refine (broadcastTo_1b_ab_apply _ broadcasts_S1x512_S1024x512 p q).trans ?_
    refine (transpose_ix2_apply _ transposes_S512x1_p1_0_S1x512 (0 : Fin 1) q).trans ?_
    refine congrArg Ideal.sqrt ?_
    refine (column_apply _ shapeCasts_S512_S512x1 q 0).trans ?_
    exact rowSum_apply _ reduces_S512x1024_S512 (.inl rfl) rfl q

end Cert.CosineSim

end
-- ==== Proof.Blocks.lean ====
/-
  From the kernel's blocks to its result array.

  The grid has 4 × 8 points. At point (i, j) the kernel stages rows [1024 i, 1024 i + 1024) of the first argument
  and rows [512 j, 512 j + 512) of the second, whole in the column axis, and writes back the [1024, 512] block at
  block position (i, j) of the [4096, 4096] result. Entry (p, q) of what it writes back is the cosine similarity
  of row `p` of the first staged block and row `q` of the second, which are rows 1024 i + p and 512 j + q of the
  arguments: the block is the restriction of the whole similarity matrix. The 32 blocks tile the result — the
  entry (r, s) lies in the block of the point with i = r / 1024 and j = s / 512 — so after the run the result
  array is the similarity matrix of the argument arrays.
-/
import proofs.«154388_j43353399886117_2_alg».proof.Proof.Gen.KernelIdeal.Value
import proofs.«154388_j43353399886117_2_alg».proof.Proof.Payload

noncomputable section

namespace Cert.CosineSim

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps over the grid: the first argument's row block is the result's row block, the second
    argument's row block is the result's column block, neither argument is cut along its columns, and the
    result's block positions stay inside 4 × 8. -/
theorem index_facts : ∀ t : Fin cfg0.N, win0_0.index t (0 : Fin 2) = win0_2.index t (0 : Fin 2)
    ∧ win0_1.index t (0 : Fin 2) = win0_2.index t (1 : Fin 2)
    ∧ win0_0.index t (1 : Fin 2) = 0
    ∧ win0_1.index t (1 : Fin 2) = 0
    ∧ win0_2.index t (0 : Fin 2) ≤ 3
    ∧ win0_2.index t (1 : Fin 2) ≤ 7 :=
  (by decide +kernel : ∀ t : Fin grid0.N, _)

/-- Every block position of the 4 × 8 tiling is some point's. -/
theorem index_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point `t` writes back is block `t` of the similarity matrix of the argument arrays. -/
theorem flushed_eq (c : Dev nD) (t : Fin cfg0.N) :
    (dats m 0 c).flushed 2 t
      = ((cfg0.win 2).blk t).view.read (Elt Ideal) (cosSim (V m c main_arg0) (V m c main_arg1)) := by
  rw [Cert.KernelIdeal.Value.flushed2]
  unfold out0_2
  rw [View.canon_unit_zero origin]
  simp only [View.ld_unit_zero (S := S1024x1024) origin, View.ld_unit_zero (S := S512x1024) origin]
  obtain ⟨e0, e1, e2, e3, e4, e5⟩ := index_facts t
  funext j
  obtain ⟨p, q, rfl⟩ : ∃ (p : Fin 1024) (q : Fin 512), j = ix2 p q := ⟨j 0, j 1, eq_ix2 j⟩
  have hp : p.val < 1024 := p.isLt
  have hq : q.val < 512 := q.isLt
  have hP : win0_2.index t (0 : Fin 2) * 1024 + p.val < 4096 := by omega
  have hQ : win0_2.index t (1 : Fin 2) * 512 + q.val < 4096 := by omega
  show k0_pay1 (iblk m c 0 t) (iblk m c 1 t) (ix2 p q)
    = cosSim (V m c main_arg0) (V m c main_arg1) (((cfg0.win 2).blk t).view.emb (ix2 p q))
  have hemb : ((cfg0.win 2).blk t).view.emb (ix2 p q) = ix2 (⟨_, hP⟩ : Fin 4096) (⟨_, hQ⟩ : Fin 4096) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 512 + 1 * q.val = win0_2.index t (1 : Fin 2) * 512 + q.val; omega
  rw [hemb, cosSim_ix2]
  refine (payload_entry (iblk m c 0 t) (iblk m c 1 t) p q).trans
    (cosEntry_congr (iblk m c 0 t) (iblk m c 1 t) (V m c main_arg0) (V m c main_arg1) p q ⟨_, hP⟩ ⟨_, hQ⟩ (fun k => ?_) (fun k => ?_))
  · show V m c main_arg0 (((cfg0.win 0).blk t).view.emb (ix2 p k)) = V m c main_arg0 (ix2 (⟨_, hP⟩ : Fin 4096) k)
    refine congrArg (V m c main_arg0) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 1024 + 1 * k.val = k.val; omega
  · show V m c main_arg1 (((cfg0.win 1).blk t).view.emb (ix2 q k)) = V m c main_arg1 (ix2 (⟨_, hQ⟩ : Fin 4096) k)
    refine congrArg (V m c main_arg1) (funext fun a => Fin.ext ?_)
    match a with
    | ⟨0, _⟩ => show win0_1.index t (0 : Fin 2) * 512 + 1 * q.val = win0_2.index t (1 : Fin 2) * 512 + q.val; omega
    | ⟨1, _⟩ => show win0_1.index t (1 : Fin 2) * 1024 + 1 * k.val = k.val; omega

/-- An entry of the result is in point `t`'s block iff each of its coordinates is in the block's range. -/
theorem mem_blk (t : Fin cfg0.N) (i : S4096x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- The blocks tile the result: entry (r, s) is in the block of the point at block position (r / 1024, s / 512). -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := index_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the similarity matrix of the argument arrays. -/
theorem final (c : Dev nD) :
    (dats m 0 c).arrAt 2 cfg0.N = cosSim (m ((c : Thread nD τ).loc main_arg0)) (m ((c : Thread nD τ).loc main_arg1)) :=
  (dats m 0 c).arrAt_eq_of_cover 2 (cosSim (V m c main_arg0) (V m c main_arg1)) (fun t _ => flushed_eq m c t) cover

/-- Every weakly fair execution of the kernel's program ends with the result at the similarity matrix of the
    arguments, which are unchanged. -/
theorem kernel_run : θ_run defs (onTc (τ := τ) (main (F := Ideal))) ⟨m, fun _ => 0, ρ⟩ fun r => ∀ c : Dev nD,
      r.2.mem ((c : Thread nD τ).loc main_v0) = cosSim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.CosineSim

end
-- ==== Proof.RefValue.lean ====
/-
  The reference, one operation at a time, is the cosine-similarity matrix.

  Its result at (p, q) is the quotient of the contraction of the two arguments over their column axes by the
  maximum of ε and the product of two broadcast vectors, each the square root of a row sum (from zero) of an
  argument's squares. Each of those stages reads one entry of its operand, so the result at (p, q) is the
  inner product of rows `p` and `q` over the clamped product of their norms.
-/
import proofs.«154388_j43353399886117_2_alg».proof.Proof.Gen.ReferenceIdeal.Read
import proofs.«154388_j43353399886117_2_alg».proof.Proof.Spec

noncomputable section

namespace Cert.CosineSim

open Cert.ReferenceIdeal Cert.ReferenceIdeal.Read Idealize.ShloMosaic Idealize.ShloMosaic.ValueIdx

/-- The reference's last stage, as a function of the two argument arrays, is the similarity matrix. -/
theorem reference_eq (x0 x1 : FVec Ideal S4096x1024 .f32) :
    val_main_v10 (F := Ideal) x0 x1 = cosSim x0 x1 := by
  funext i
  obtain ⟨p, q, rfl⟩ : ∃ (p : Fin 4096) (q : Fin 4096), i = ix2 p q := ⟨i 0, i 1, eq_ix2 i⟩
  have el : ∀ k : Fin 1024, lidx_main_v0 (ix2 p q) k = ix2 p k := fun k =>
    funext fun a => Fin.ext (by match a with | ⟨0, _⟩ => rfl | ⟨1, _⟩ => rfl)
  have er : ∀ k : Fin 1024, ridx_main_v0 (ix2 p q) k = ix2 q k := fun k =>
    funext fun a => Fin.ext (by match a with | ⟨0, _⟩ => rfl | ⟨1, _⟩ => rfl)
  have e0 : ∀ k : Fin 1024, idx_main_call0_v1 (idx_main_v3 (idx_main_v5 (ix2 p q))) k = ix2 p k := fun k =>
    funext fun a => Fin.ext (by match a with | ⟨0, _⟩ => rfl | ⟨1, _⟩ => rfl)
  have e1 : ∀ k : Fin 1024, idx_main_call1_v1 (idx_main_v4 (idx_main_v6 (ix2 p q))) k = ix2 q k := fun k =>
    funext fun a => Fin.ext (by match a with | ⟨0, _⟩ => rfl | ⟨1, _⟩ => rfl)
  rw [val_main_v10_apply, val_main_v0_apply, val_main_v9_apply, val_main_v7_apply, val_main_v8_apply, val_main_cst_apply,
    val_main_v5_apply, val_main_v3_apply, val_main_v1_apply, val_main_call0_v1_apply,
    val_main_v6_apply, val_main_v4_apply, val_main_v2_apply, val_main_call1_v1_apply]
  simp only [val_main_call0_v0_apply, val_main_call1_v0_apply, val_main_call0_cst_apply, val_main_call1_cst_apply,
    el, er, e0, e1, Ideal.hostDivf_def, Ideal.mulf_def, Ideal.maximumf_def, Ideal.hostUnary_sqrt_def, Ideal.ofBits_def,
    Ideal.ofBits_zero_f32, zero_add]
  rfl

end Cert.CosineSim

end
-- ==== Proof.lean ====
/-
  Pairwise cosine similarity of the rows of two [4096, 1024] arrays, tiled kernel against whole-array reference.

  Both programs compute, at (n, m),

      ⟨target_n, ss_m⟩ / max (‖target_n‖ · ‖ss_m‖, ε),      ε the f32 word nearest 1e-8,

  over the extended reals. The kernel does so block by block on a 4 × 8 grid: a [1024, 1024] row block of the
  first argument against a [512, 1024] row block of the second, the inner products by one matrix product over the
  column axes (its factors rounded to bf16, which is the identity on extended reals), the norms as square roots
  of row sums kept as a column and a transposed row and broadcast over the block. The reference contracts the
  whole arrays, takes the two norm vectors, broadcasts them to the whole matrix and divides. Entry by entry the
  two are the same sums, square roots, product, maximum and quotient, in the same order, so no law of the
  extended reals beyond `0 + x = x` (the reference's sums start from zero) is needed, and the precondition is
  never opened.

  Spec.lean states the similarity matrix; Payload.lean reads one entry of a stored block; Blocks.lean tiles the
  result with the blocks; RefValue.lean reads the reference. The three frames are the generated ones (the
  reference's is its generated run with the result dropped); no operation of the kernel was rewritten for the
  idealized reading, so there is nothing to preserve.
-/
import proofs.«154388_j43353399886117_2_alg».proof.Defs
import proofs.«154388_j43353399886117_2_alg».proof.Proof.Gen.Kernel
import proofs.«154388_j43353399886117_2_alg».proof.Proof.Gen.Kernel.Frame
import proofs.«154388_j43353399886117_2_alg».proof.Proof.Gen.KernelIdeal
import proofs.«154388_j43353399886117_2_alg».proof.Proof.Gen.KernelIdeal.Frame
import proofs.«154388_j43353399886117_2_alg».proof.Proof.Gen.KernelIdeal.Value
import proofs.«154388_j43353399886117_2_alg».proof.Proof.Gen.ReferenceIdeal
import proofs.«154388_j43353399886117_2_alg».proof.Proof.Gen.ReferenceIdeal.Run
import proofs.«154388_j43353399886117_2_alg».proof.Proof.Gen.ReferenceIdeal.Read
import proofs.«154388_j43353399886117_2_alg».proof.Proof.Gen.Pre_finite_inputs
import proofs.«154388_j43353399886117_2_alg».proof.Proof.Blocks
import proofs.«154388_j43353399886117_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array ends at the similarity matrix of its
    arguments and the reference's at its last stage of its own, which is the same matrix. -/
theorem algebraic : Cert.algebraic_KernelIdeal_ReferenceIdeal := by
  intro m ρ m' ρ' _ hagree
  refine ⟨_, Cert.CosineSim.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.CosineSim.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
